-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S3x224x224 : Shape := ⟨3, ![3, 224, 224]⟩
abbrev S196 : Shape := ⟨1, ![196]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S3x224x224 : S_.BroadcastsInDim S3x224x224 (![] : Fin 0 → Fin S3x224x224.rank)
  reducesTo_S3x224x224_S_d0_1_2 : S3x224x224.ReducesTo [0, 1, 2] S_
  bcast_S_S196 : S_.BroadcastsInDim S196 (![] : Fin 0 → Fin S196.rank)
  reducesTo_S196_S_d0 : S196.ReducesTo [0] S_

variable [Facts]

def fn {F : FTy → Type} [FloatOps F] (main_arg0 : FVec F S256x3x224x224 .f32) (main_arg1 : FVec F S3x224x224 .f32) (main_arg2 : FVec F S196 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S3x224x224 .f32 := Host.absf main_arg1
  let main_cst_0 : FVec F S_ .f32 := constant S_ .f32 0x7F800000#32
  let main_v5 : FVec F S3x224x224 .f32 := broadcastInDim S3x224x224 ![] bcast_S_S3x224x224 main_cst_0
  let main_v6 : IVec S3x224x224 1 := cmpf .olt main_v4 main_v5
  let main_c_1 : IVec S_ 1 := constantI S_ 1 1#1
  let main_v7 : IVec S_ 1 := (fun x v => Host.reduce IntOp.andi x v reducesTo_S3x224x224_S_d0_1_2 h_S_) main_v6 main_c_1
  let main_v8 : IVec S_ 1 := andi main_v3 main_v7
  let main_v9 : FVec F S196 .f32 := Host.absf main_arg2
  let main_cst_2 : FVec F S_ .f32 := constant S_ .f32 0x7F800000#32
  let main_v10 : FVec F S196 .f32 := broadcastInDim S196 ![] bcast_S_S196 main_cst_2
  let main_v11 : IVec S196 1 := cmpf .olt main_v9 main_v10
  let main_c_3 : IVec S_ 1 := constantI S_ 1 1#1
  let main_v12 : IVec S_ 1 := (fun x v => Host.reduce IntOp.andi x v reducesTo_S196_S_d0 h_S_) main_v11 main_c_3
  let main_v13 : IVec S_ 1 := andi main_v8 main_v12
  main_v13
-- ==== Kernel.lean ====
abbrev S256x3x224x224 : Shape := ⟨4, ![256, 3, 224, 224]⟩
abbrev S3x224x224 : Shape := ⟨3, ![3, 224, 224]⟩
abbrev S196 : Shape := ⟨1, ![196]⟩
abbrev S14x14 : Shape := ⟨2, ![14, 14]⟩
abbrev S14x16x14 : Shape := ⟨3, ![14, 16, 14]⟩
abbrev S224x14 : Shape := ⟨2, ![224, 14]⟩
abbrev S224x14x16 : Shape := ⟨3, ![224, 14, 16]⟩
abbrev S224x224 : Shape := ⟨2, ![224, 224]⟩
abbrev S_ : Shape := ⟨0, ![]⟩
abbrev S1x224x224 : Shape := ⟨3, ![1, 224, 224]⟩
abbrev S150528 : Shape := ⟨1, ![150528]⟩
abbrev S1x150528 : Shape := ⟨2, ![1, 150528]⟩
abbrev S2x150528 : Shape := ⟨2, ![2, 150528]⟩
abbrev S256x150528 : Shape := ⟨2, ![256, 150528]⟩
abbrev S8x150528 : Shape := ⟨2, ![8, 150528]⟩

abbrev nBuf : Space → Nat
  | .hbm => 25
  | .vmem => 5
  | .smem => 0
  | _ => 0

abbrev bufTy : (tb : Table) → Fin (tcTables nBuf tb) → BufTy
  | .hbm, ⟨0, _⟩ => ⟨S256x3x224x224, .f32⟩
  | .hbm, ⟨1, _⟩ => ⟨S3x224x224, .f32⟩
  | .hbm, ⟨2, _⟩ => ⟨S196, .f32⟩
  | .hbm, ⟨3, _⟩ => ⟨S196, .f32⟩
  | .hbm, ⟨4, _⟩ => ⟨S14x14, .f32⟩
  | .hbm, ⟨5, _⟩ => ⟨S14x16x14, .f32⟩
  | .hbm, ⟨6, _⟩ => ⟨S224x14, .f32⟩
  | .hbm, ⟨7, _⟩ => ⟨S224x14x16, .f32⟩
  | .hbm, ⟨8, _⟩ => ⟨S224x224, .f32⟩
  | .hbm, ⟨9, _⟩ => ⟨S_, .f32⟩
  | .hbm, ⟨10, _⟩ => ⟨S224x224, .f32⟩
  | .hbm, ⟨11, _⟩ => ⟨S224x224, .f32⟩
  | .hbm, ⟨12, _⟩ => ⟨S1x224x224, .f32⟩
  | .hbm, ⟨13, _⟩ => ⟨S3x224x224, .f32⟩
  | .hbm, ⟨14, _⟩ => ⟨S150528, .f32⟩
  | .hbm, ⟨15, _⟩ => ⟨S1x224x224, .f32⟩
  | .hbm, ⟨16, _⟩ => ⟨S3x224x224, .f32⟩
  | .hbm, ⟨17, _⟩ => ⟨S3x224x224, .f32⟩
  | .hbm, ⟨18, _⟩ => ⟨S150528, .f32⟩
  | .hbm, ⟨19, _⟩ => ⟨S1x150528, .f32⟩
  | .hbm, ⟨20, _⟩ => ⟨S1x150528, .f32⟩
  | .hbm, ⟨21, _⟩ => ⟨S2x150528, .f32⟩
  | .hbm, ⟨22, _⟩ => ⟨S256x150528, .f32⟩
  | .hbm, ⟨23, _⟩ => ⟨S256x150528, .f32⟩
  | .hbm, ⟨24, _⟩ => ⟨S256x3x224x224, .f32⟩
  | .local _ .vmem, ⟨0, _⟩ => ⟨S8x150528, .f32⟩
  | .local _ .vmem, ⟨1, _⟩ => ⟨S8x150528, .f32⟩
  | .local _ .vmem, ⟨2, _⟩ => ⟨S2x150528, .f32⟩
  | .local _ .vmem, ⟨3, _⟩ => ⟨S8x150528, .f32⟩
  | .local _ .vmem, ⟨4, _⟩ => ⟨S8x150528, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x150528 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x150528 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x150528 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S196_S14x14 : S196.ShapeCasts S14x14
  bcast_S14x14_S14x16x14_0_2 : S14x14.BroadcastsInDim S14x16x14 (![0, 2] : Fin 2 → Fin S14x16x14.rank)
  shapeCasts_S14x16x14_S224x14 : S14x16x14.ShapeCasts S224x14
  bcast_S224x14_S224x14x16_0_1 : S224x14.BroadcastsInDim S224x14x16 (![0, 1] : Fin 2 → Fin S224x14x16.rank)
  shapeCasts_S224x14x16_S224x224 : S224x14x16.ShapeCasts S224x224
  bcast_S_S224x224 : S_.BroadcastsInDim S224x224 (![] : Fin 0 → Fin S224x224.rank)
  bcast_S224x224_S1x224x224_1_2 : S224x224.BroadcastsInDim S1x224x224 (![1, 2] : Fin 2 → Fin S1x224x224.rank)
  bcast_S1x224x224_S3x224x224_0_1_2 : S1x224x224.BroadcastsInDim S3x224x224 (![0, 1, 2] : Fin 3 → Fin S3x224x224.rank)
  shapeCasts_S3x224x224_S150528 : S3x224x224.ShapeCasts S150528
  bcast_S150528_S1x150528_1 : S150528.BroadcastsInDim S1x150528 (![1] : Fin 1 → Fin S1x150528.rank)
  concatenates_S1x150528_S1x150528_S2x150528_d0 : Shape.Concatenates [S1x150528, S1x150528] S2x150528 0
  shapeCasts_S256x3x224x224_S256x150528 : S256x3x224x224.ShapeCasts S256x150528
  inb_S8x150528_S8x150528_0_0 : ∀ a, (![0, 0] : Fin 2 → Nat) a + S8x150528.size a ≤ S8x150528.size a
  h_S8x150528 : 0 < S8x150528.numel
  shapeCasts_S8x150528_S8x150528 : S8x150528.ShapeCasts S8x150528
  inb_S2x150528_S2x150528_0_0 : ∀ a, (![0, 0] : Fin 2 → Nat) a + S2x150528.size a ≤ S2x150528.size a
  h_S2x150528 : 0 < S2x150528.numel
  shapeCasts_S2x150528_S2x150528 : S2x150528.ShapeCasts S2x150528
  slices_S2x150528_o0_0_S1x150528 : S2x150528.Slices ![0, 0] S1x150528
  slices_S2x150528_o1_0_S1x150528 : S2x150528.Slices ![1, 0] S1x150528
  broadcasts_S1x150528_S8x150528 : S1x150528.Broadcasts S8x150528
  shapeCasts_S256x150528_S256x3x224x224 : S256x150528.ShapeCasts S256x3x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x150528.size a ≤ S256x150528.size a
  hwx0_0 : ∀ i : grid0.Coords, EltTy.bits .f32 = 32 ∨ (Rect.block (s := S256x150528) S8x150528.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x150528.size a ≤ S2x150528.size a
  hwx0_1 : ∀ i : grid0.Coords, EltTy.bits .f32 = 32 ∨ (Rect.block (s := S2x150528) S2x150528.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x150528.size a ≤ S256x150528.size a
  hwx0_2 : ∀ i : grid0.Coords, EltTy.bits .f32 = 32 ∨ (Rect.block (s := S256x150528) S8x150528.size (cc0_transform_2 i) (hinb0_2 i)).WholeWords (EltTy.packing .f32)

variable [Facts₀]

abbrev win0_0 : Pipeline.Window sig grid0 :=
  Pipeline.Window.ofSpec (Memref.whole main_v18) S8x150528.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2x150528.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S8x150528.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S3x224x224 : Shape := ⟨3, ![3, 224, 224]⟩
abbrev S196 : Shape := ⟨1, ![196]⟩
abbrev S14x14 : Shape := ⟨2, ![14, 14]⟩
abbrev S14x16x14 : Shape := ⟨3, ![14, 16, 14]⟩
abbrev S224x14 : Shape := ⟨2, ![224, 14]⟩
abbrev S224x14x16 : Shape := ⟨3, ![224, 14, 16]⟩
abbrev S224x224 : Shape := ⟨2, ![224, 224]⟩
abbrev S_ : Shape := ⟨0, ![]⟩
abbrev S1x1x224x224 : Shape := ⟨4, ![1, 1, 224, 224]⟩
abbrev S1x224x224 : Shape := ⟨3, ![1, 224, 224]⟩
abbrev S1x3x224x224 : Shape := ⟨4, ![1, 3, 224, 224]⟩

abbrev nBuf : Space → Nat
  | .hbm => 29
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S3x224x224, .f32⟩
  | .hbm, ⟨2, _⟩ => ⟨S196, .f32⟩
  | .hbm, ⟨3, _⟩ => ⟨S196, .f32⟩
  | .hbm, ⟨4, _⟩ => ⟨S14x14, .f32⟩
  | .hbm, ⟨5, _⟩ => ⟨S14x16x14, .f32⟩
  | .hbm, ⟨6, _⟩ => ⟨S224x14, .f32⟩
  | .hbm, ⟨7, _⟩ => ⟨S224x14x16, .f32⟩
  | .hbm, ⟨8, _⟩ => ⟨S224x224, .f32⟩
  | .hbm, ⟨9, _⟩ => ⟨S_, .f32⟩
  | .hbm, ⟨10, _⟩ => ⟨S224x224, .f32⟩
  | .hbm, ⟨11, _⟩ => ⟨S224x224, .f32⟩
  | .hbm, ⟨12, _⟩ => ⟨S1x1x224x224, .f32⟩
  | .hbm, ⟨13, _⟩ => ⟨S256x3x224x224, .f32⟩
  | .hbm, ⟨14, _⟩ => ⟨S256x3x224x224, .f32⟩
  | .hbm, ⟨15, _⟩ => ⟨S1x224x224, .f32⟩
  | .hbm, ⟨16, _⟩ => ⟨S3x224x224, .f32⟩
  | .hbm, ⟨17, _⟩ => ⟨S3x224x224, .f32⟩
  | .hbm, ⟨18, _⟩ => ⟨S1x3x224x224, .f32⟩
  | .hbm, ⟨19, _⟩ => ⟨S256x3x224x224, .f32⟩
  | .hbm, ⟨20, _⟩ => ⟨S256x3x224x224, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S256x3x224x224, .f32⟩
  | .hbm, ⟨25, _⟩ => ⟨S256x3x224x224, .f32⟩
  | .hbm, ⟨26, _⟩ => ⟨S_, .f32⟩
  | .hbm, ⟨27, _⟩ => ⟨S256x3x224x224, .f32⟩
  | .hbm, ⟨28, _⟩ => ⟨S256x3x224x224, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  shapeCasts_S196_S14x14 : S196.ShapeCasts S14x14
  bcast_S14x14_S14x16x14_0_2 : S14x14.BroadcastsInDim S14x16x14 (![0, 2] : Fin 2 → Fin S14x16x14.rank)
  shapeCasts_S14x16x14_S224x14 : S14x16x14.ShapeCasts S224x14
  bcast_S224x14_S224x14x16_0_1 : S224x14.BroadcastsInDim S224x14x16 (![0, 1] : Fin 2 → Fin S224x14x16.rank)
  shapeCasts_S224x14x16_S224x224 : S224x14x16.ShapeCasts S224x224
  bcast_S_S224x224 : S_.BroadcastsInDim S224x224 (![] : Fin 0 → Fin S224x224.rank)
  bcast_S224x224_S1x1x224x224_2_3 : S224x224.BroadcastsInDim S1x1x224x224 (![2, 3] : Fin 2 → Fin S1x1x224x224.rank)
  bcast_S1x1x224x224_S256x3x224x224_0_1_2_3 : S1x1x224x224.BroadcastsInDim S256x3x224x224 (![0, 1, 2, 3] : Fin 4 → Fin S256x3x224x224.rank)
  bcast_S224x224_S1x224x224_1_2 : S224x224.BroadcastsInDim S1x224x224 (![1, 2] : Fin 2 → Fin S1x224x224.rank)
  bcast_S1x224x224_S3x224x224_0_1_2 : S1x224x224.BroadcastsInDim S3x224x224 (![0, 1, 2] : Fin 3 → Fin S3x224x224.rank)
  bcast_S3x224x224_S1x3x224x224_1_2_3 : S3x224x224.BroadcastsInDim S1x3x224x224 (![1, 2, 3] : Fin 3 → Fin S1x3x224x224.rank)
  bcast_S1x3x224x224_S256x3x224x224_0_1_2_3 : S1x3x224x224.BroadcastsInDim S256x3x224x224 (![0, 1, 2, 3] : Fin 4 → Fin S256x3x224x224.rank)
  bcast_S_S256x3x224x224 : S_.BroadcastsInDim S256x3x224x224 (![] : Fin 0 → Fin S256x3x224x224.rank)

variable [Facts₀]

class Facts : Prop extends Facts₀ where

variable [Facts]
-- ==== Proof.Spec.lean ====
/-
  The blend this certificate is about, as pure functions on the extended reals.

  For an image batch `img[b, c, h, w]`, a noise image `noise[c, h, w]` and two per-pixel coefficient maps
  `W[h, w]` (the weight kept of the image) and `A[h, w]` (the weight given to the noise), the result is
  `clip (W[h, w] · img[b, c, h, w] + A[h, w] · noise[c, h, w])`, where `clip` bounds below by -1 first and then
  above by 1. `blend` states it over the four image coordinates. `blendFlat` states the same arithmetic over a
  batch of FLATTENED images `x[b, j]`, `j` the row-major position of `(c, h, w)`, against a two-row coefficient
  table `wb` whose row 0 multiplies and whose row 1 is added.
-/
import Idealize.ShloMosaic.PureOps.Ideal
import Idealize.ShloMosaic.Lib.ValueIdx

noncomputable section

namespace Cert.Blend

open Idealize.ShloMosaic Idealize.ShloMosaic.ValueIdx

/-- The image batch's shape, the noise image's, a per-pixel map's, the flattened batch's, the coefficient table's. -/
abbrev SImg : Shape := ⟨4, ![256, 3, 224, 224]⟩
abbrev SNoise : Shape := ⟨3, ![3, 224, 224]⟩
abbrev SMap : Shape := ⟨2, ![224, 224]⟩
abbrev SFlat : Shape := ⟨2, ![256, 150528]⟩
abbrev SCoef : Shape := ⟨2, ![2, 150528]⟩

/-- Clipping to [-1, 1]: the maximum with -1 first, the minimum with 1 after (the two words are the binary32
    patterns of -1 and 1; they are never evaluated, both programs carry the same ones). -/
def clip (x : EReal) : EReal :=
  min (Ideal.ofBits .f32 0x3F800000#32) (max (Ideal.ofBits .f32 0xBF800000#32) x)

/-- The blend over image coordinates. -/
def blend (img : FVec Ideal SImg .f32) (noise : FVec Ideal SNoise .f32) (W A : FVec Ideal SMap .f32) :
    FVec Ideal SImg .f32 :=
  fun i => clip (W (ix2 (i 2) (i 3)) * img i + A (ix2 (i 2) (i 3)) * noise (ix3 (i 1) (i 2) (i 3)))

/-- The blend over flattened images: row 0 of the table multiplies, row 1 is added. -/
def blendFlat (x : FVec Ideal SFlat .f32) (wb : FVec Ideal SCoef .f32) : FVec Ideal SFlat .f32 :=
  fun i => clip (x i * wb (ix2 (0 : Fin 2) (i 1)) + wb (ix2 (1 : Fin 2) (i 1)))

end Cert.Blend

end
-- ==== Proof.Reference.lean ====
/-
  The reference program computes the blend: read one operation at a time (the generated read-at-an-index lemmas),
  its result at `(b, c, h, w)` is `clip (W[h, w] · img[b, c, h, w] + A[h, w] · noise[c, h, w])` with `W` the stage
  `1 - amap` and `A` the stage `amap` — the two broadcasts over batch and channel only drop coordinates.
-/
import proofs.«138452_j60662118088856_2_alg».proof.Proof.Gen.ReferenceIdeal.Read
import proofs.«138452_j60662118088856_2_alg».proof.Proof.Spec
import Idealize.ShloMosaic.Lib.ValueIdx

noncomputable section

namespace Cert.Blend.Ref

open Cert.ReferenceIdeal Cert.ReferenceIdeal.Read Idealize.ShloMosaic Idealize.ShloMosaic.ValueIdx

/-- The reference's result is the blend of its arguments with its own two coefficient maps. -/
theorem reference_eq (x0 : (⟨S256x3x224x224, .f32⟩ : BufTy).Contents (Elt Ideal))
    (x1 : (⟨S3x224x224, .f32⟩ : BufTy).Contents (Elt Ideal)) (x2 : (⟨S196, .f32⟩ : BufTy).Contents (Elt Ideal)) :
    val_main_v17 (F := Ideal) x0 x1 x2
      = blend x0 x1 (val_main_v7 (F := Ideal) x2) (val_main_v5 (F := Ideal) x2) := by
  funext i
  -- the broadcasts over batch and channel read the maps at the pixel, the noise at channel and pixel
  have e1 : idx_main_v8 (idx_main_v9 i) = ix2 (i 2) (i 3) :=
    funext fun a => Fin.ext (by match a with | ⟨0, _⟩ => rfl | ⟨1, _⟩ => rfl)
  have e2 : idx_main_v11 (idx_main_v12 (idx_main_v14 (idx_main_v15 i))) = ix2 (i 2) (i 3) :=
    funext fun a => Fin.ext (by match a with | ⟨0, _⟩ => rfl | ⟨1, _⟩ => rfl)
  have e3 : idx_main_v14 (idx_main_v15 i) = ix3 (i 1) (i 2) (i 3) :=
    funext fun a => Fin.ext (by match a with | ⟨0, _⟩ => rfl | ⟨1, _⟩ => rfl | ⟨2, _⟩ => rfl)
  rw [val_main_v17_apply, val_main_call0_v4_apply, val_main_call0_v3_apply, val_main_cst_1_apply,
    val_main_call0_v2_apply, val_main_call0_v1_apply, val_main_call0_v0_apply, val_main_cst_0_apply,
    val_main_v16_apply, val_main_v10_apply, val_main_v9_apply, val_main_v8_apply, val_main_v15_apply,
    val_main_v14_apply, val_main_v13_apply, val_main_v12_apply, val_main_v11_apply, e1, e2, e3]
  rfl

end Cert.Blend.Ref

end
-- ==== Proof.Body.lean ====
/-
  The kernel body's one stored value, read at an entry of the block: with `x0` the loaded block of flattened images
  (8 rows) and `x1` the loaded two-row coefficient table, the value stored at `(r, j)` is
  `clip (x0[r, j] · x1[0, j] + x1[1, j])` — row 0 of the table, broadcast down the 8 rows, multiplies; row 1,
  broadcast the same way, is added.
-/
import proofs.«138452_j60662118088856_2_alg».proof.Proof.Gen.KernelIdeal.Skeleton
import proofs.«138452_j60662118088856_2_alg».proof.Proof.Spec
import Idealize.ShloMosaic.Lib.ValueIdx
import Idealize.ShloMosaic.Lib.ValueLayout
import Idealize.ShloMosaic.Lib.Pipeline.Value

noncomputable section

namespace Cert.Blend.Body

open Cert.KernelIdeal Cert.KernelIdeal.Gen Idealize.ShloMosaic Idealize.ShloMosaic.ValueIdx

/-- The stored value at row `r`, position `j`. -/
theorem pay_apply (x0 : Vec Ideal S8x150528 .f32) (x1 : Vec Ideal S2x150528 .f32) (r : Fin 8) (j : Fin 150528) :
    k0_pay1 (F := Ideal) x0 x1 (ix2 r j)
      = clip (x0 (ix2 r j) * x1 (ix2 (0 : Fin 2) j) + x1 (ix2 (1 : Fin 2) j)) := by
  unfold k0_pay1 clip
  rw [minimumf_apply, maximumf_apply, addf_apply, mulf_apply, broadcast_apply, broadcast_apply,
    shapeCast_self, shapeCast_self, broadcastTo_1b_ab_apply, broadcastTo_1b_ab_apply,
    slice2_axis0_apply 0 x1 _ (0 : Fin 1) j (0 : Fin 2) rfl, slice2_axis0_apply 1 x1 _ (0 : Fin 1) j (1 : Fin 2) rfl]
  rfl

end Cert.Blend.Body

end
-- ==== Proof.Blocks.lean ====
/-
  From what each grid point writes back to the whole output array of the kernel region.

  The region's output is the flattened batch `[256, 150528]`; grid point `t` (of 32) owns rows `8t … 8t + 7`, all
  columns. It loads the same rows of the flattened input batch and the whole two-row coefficient table (its block
  index is 0 at every point), so what it writes back is its block of ONE function of the two arrays the region
  finds, `blendFlat`; the 32 row blocks tile the 256 rows, so after the run the output array IS that function.
-/
import proofs.«138452_j60662118088856_2_alg».proof.Proof.Gen.KernelIdeal.Frame
import proofs.«138452_j60662118088856_2_alg».proof.Proof.Body
import Idealize.ShloMosaic.Lib.Pipeline.Value

noncomputable section

namespace Cert.Blend.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem off_zero : (![0, 0] : Fin 2 → Nat) = fun _ => 0 := funext fun a => by fin_cases a <;> rfl

/-- The three index maps over the grid: the batch windows (input and output) sit at row block `t`, column block 0;
    the coefficient table's window never moves. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a point's stored block is the flattened blend at an array index `i`, as soon as the loaded image
    block agrees with the array there and the loaded table with the array's table at `i`'s column. -/
theorem entry_eq (X : FVec Ideal S256x150528 .f32) (WB : FVec Ideal S2x150528 .f32)
    (x0 : Vec Ideal S8x150528 .f32) (x1 : Vec Ideal S2x150528 .f32) (r : Fin 8) (j : Fin 150528)
    (i : S256x150528.Idx) (h0 : x0 (ix2 r j) = X i)
    (h10 : x1 (ix2 (0 : Fin 2) j) = WB (ix2 (0 : Fin 2) (i 1)))
    (h11 : x1 (ix2 (1 : Fin 2) j) = WB (ix2 (1 : Fin 2) (i 1))) :
    k0_pay1 (F := Ideal) x0 x1 (ix2 r j) = blendFlat X WB i := by
  rw [Body.pay_apply, h0, h10, h11]
  rfl

/-- WHAT POINT `t` WRITES BACK is its block of the flattened blend of the input batch and the table as the region
    finds them. -/
theorem flushed_eq (c : Dev nD) (t : Fin cfg0.N) :
    (dats m 0 c).flushed 2 t
      = ((cfg0.win 2).blk t).view.read (Elt Ideal) (blendFlat (V m c main_v18) (V m c main_v17)) := by
  show (cfg0.win 2).cut (grid0.coords t) ((dats m 0 c).after 2 t) = _
  rw [after0_2]
  unfold out0_2
  rw [View.canon_unit_zero off_zero]
  simp only [View.ld_unit_zero (S := S8x150528) off_zero, View.ld_unit_zero (S := S2x150528) off_zero]
  obtain ⟨e0, e1, e2, e3, e4, e5⟩ := index_maps t
  funext y
  obtain ⟨r, j, rfl⟩ : ∃ (r : Fin 8) (j : Fin 150528), y = ix2 r j := ⟨y 0, y 1, eq_ix2 y⟩
  show k0_pay1 (F := Ideal) (iblk m c 0 t) (iblk m c 1 t) (ix2 r j)
    = blendFlat (V m c main_v18) (V m c main_v17) (((cfg0.win 2).blk t).view.emb (ix2 r j))
  refine entry_eq _ _ _ _ r j _ ?_ ?_ ?_
  · show V m c main_v18 (((cfg0.win 0).blk t).view.emb (ix2 r j))
      = V m c main_v18 (((cfg0.win 2).blk t).view.emb (ix2 r j))
    refine congrArg _ (funext fun a => Fin.ext ?_)
    match a with
    | ⟨0, _⟩ =>
      show win0_0.index t (0 : Fin 2) * 8 + 1 * r.val = win0_2.index t (0 : Fin 2) * 8 + 1 * r.val
      omega
    | ⟨1, _⟩ =>
      show win0_0.index t (1 : Fin 2) * 150528 + 1 * j.val = win0_2.index t (1 : Fin 2) * 150528 + 1 * j.val
      omega
  · show V m c main_v17 (((cfg0.win 1).blk t).view.emb (ix2 (0 : Fin 2) j))
      = V m c main_v17 (ix2 (0 : Fin 2) ((((cfg0.win 2).blk t).view.emb (ix2 r j)) 1))
    refine congrArg _ (funext fun a => Fin.ext ?_)
    match a with
    | ⟨0, _⟩ =>
      show win0_1.index t (0 : Fin 2) * 2 + 1 * 0 = 0
      omega
    | ⟨1, _⟩ =>
      show win0_1.index t (1 : Fin 2) * 150528 + 1 * j.val = win0_2.index t (1 : Fin 2) * 150528 + 1 * j.val
      omega
  · show V m c main_v17 (((cfg0.win 1).blk t).view.emb (ix2 (1 : Fin 2) j))
      = V m c main_v17 (ix2 (1 : Fin 2) ((((cfg0.win 2).blk t).view.emb (ix2 r j)) 1))
    refine congrArg _ (funext fun a => Fin.ext ?_)
    match a with
    | ⟨0, _⟩ =>
      show win0_1.index t (0 : Fin 2) * 2 + 1 * 1 = 1
      omega
    | ⟨1, _⟩ =>
      show win0_1.index t (1 : Fin 2) * 150528 + 1 * j.val = win0_2.index t (1 : Fin 2) * 150528 + 1 * j.val
      omega

/-- An index of the output array is in point `t`'s block iff each coordinate is in the block's range on its axis. -/
theorem mem_blk (t : Fin cfg0.N) (i : S256x150528.Idx) :
    i ∈ ((cfg0.win 2).blk t).view.set ↔ ∀ a : Fin 2, win0_2.index t a * S8x150528.size a ≤ (i a).val
      ∧ (i a).val < win0_2.index t a * S8x150528.size a + S8x150528.size a := by
  show i ∈ ((View.whole main_v19).slice (win0_2.rect t)).set ↔ _
  rw [View.set_slice_whole, Rect.mem_set_unit]
  exact Iff.rfl

/-- Every index of the output array is in the block of the point that owns its row: row `r` belongs to point `r / 8`. -/
theorem covered (i : S256x150528.Idx) :
    ∃ t : Fin cfg0.N, (cfg0.win 2).flush t = true ∧ i ∈ ((cfg0.win 2).blk t).view.set := by
  have hi0 : (i 0).val < 256 := (i 0).isLt
  have hi1 : (i 1).val < 150528 := (i 1).isLt
  have hN : cfg0.N = 32 := N_0
  have ht : (i 0).val / 8 < cfg0.N := by rw [hN]; omega
  obtain ⟨e0, e1, e2, e3, e4, e5⟩ := index_maps ⟨(i 0).val / 8, ht⟩
  refine ⟨⟨(i 0).val / 8, ht⟩, flush0_2 _, ?_⟩
  rw [mem_blk]
  intro a
  match a with
  | ⟨0, _⟩ =>
    show win0_2.index ⟨(i 0).val / 8, ht⟩ (0 : Fin 2) * 8 ≤ (i 0).val
      ∧ (i 0).val < win0_2.index ⟨(i 0).val / 8, ht⟩ (0 : Fin 2) * 8 + 8
    have e4' : win0_2.index ⟨(i 0).val / 8, ht⟩ (0 : Fin 2) = (i 0).val / 8 := e4
    omega
  | ⟨1, _⟩ =>
    show win0_2.index ⟨(i 0).val / 8, ht⟩ (1 : Fin 2) * 150528 ≤ (i 1).val
      ∧ (i 1).val < win0_2.index ⟨(i 0).val / 8, ht⟩ (1 : Fin 2) * 150528 + 150528
    omega

/-- THE OUTPUT ARRAY after the run is the flattened blend of the input batch and the table as the region finds them. -/
theorem region_result (c : Dev nD) :
    (dats m 0 c).arrAt 2 cfg0.N = blendFlat (V m c main_v18) (V m c main_v17) :=
  (dats m 0 c).arrAt_eq_of_cover 2 _ (fun t _ => flushed_eq m c t) covered

end Cert.Blend.Blocks

end
-- ==== Proof.Host.lean ====
/-
  The two arrays the kernel region finds, as functions of the arguments, and both read at an entry.

  Before the region the program flattens each image of the batch ([256, 3, 224, 224] to [256, 150528], row-major, so
  position `(ch · 224 + h) · 224 + w` holds `(ch, h, w)`), and builds a two-row table [2, 150528]: row 0 is the
  per-pixel map `1 - amap` repeated over the three channels and flattened the same way, row 1 is `amap · noise`
  flattened. So at the position of `(ch, h, w)` row 0 reads `(1 - amap)[h, w]` and row 1 reads
  `amap[h, w] · noise[ch, h, w]`. (`amap` itself — the patch weights squared and repeated over 16 × 16 pixels — is
  never opened: the reference builds it by the same operations.)
-/
import proofs.«138452_j60662118088856_2_alg».proof.Proof.Gen.KernelIdeal.Frame
import proofs.«138452_j60662118088856_2_alg».proof.Proof.Spec
import Idealize.ShloMosaic.Lib.ValueIdx
import Idealize.ShloMosaic.Lib.Pipeline.Value
import Idealize.ShloMosaic.Lib.StableHlo.Run

noncomputable section

namespace Cert.Blend.Host

open Cert.KernelIdeal Cert.KernelIdeal.Gen Idealize.ShloMosaic Idealize.ShloMosaic.TcCoe Idealize.SL.Sem
open Idealize.ShloMosaic.ValueIdx Idealize.ShloMosaic.StableHlo

/-! ## The stages -/

/-- The per-pixel noise weight: the patch weights squared, each repeated over its 16 × 16 pixels. -/
def amap (x2 : FVec Ideal S196 .f32) : FVec Ideal S224x224 .f32 :=
  shapeCast S224x224 (broadcastInDim S224x14x16 ![0, 1] bcast_S224x14_S224x14x16_0_1
    (shapeCast S224x14 (broadcastInDim S14x16x14 ![0, 2] bcast_S14x14_S14x16x14_0_2
      (shapeCast S14x14 (mulf x2 x2) shapeCasts_S196_S14x14)) shapeCasts_S14x16x14_S224x14))
    shapeCasts_S224x14x16_S224x224

/-- The per-pixel image weight, `1 - amap`. -/
def keep (x2 : FVec Ideal S196 .f32) : FVec Ideal S224x224 .f32 :=
  subf (broadcastInDim S224x224 ![] bcast_S_S224x224 (constant (F := Ideal) S_ .f32 0x3F800000#32)) (amap x2)

/-- Row 0 of the table: the image weight over the three channels, flattened. -/
def keepRow (x2 : FVec Ideal S196 .f32) : FVec Ideal S1x150528 .f32 :=
  broadcastInDim S1x150528 ![1] bcast_S150528_S1x150528_1
    (shapeCast S150528 (broadcastInDim S3x224x224 ![0, 1, 2] bcast_S1x224x224_S3x224x224_0_1_2
      (broadcastInDim S1x224x224 ![1, 2] bcast_S224x224_S1x224x224_1_2 (keep x2))) shapeCasts_S3x224x224_S150528)

/-- Row 1 of the table: the weighted noise, flattened. -/
def noiseRow (x1 : FVec Ideal S3x224x224 .f32) (x2 : FVec Ideal S196 .f32) : FVec Ideal S1x150528 .f32 :=
  broadcastInDim S1x150528 ![1] bcast_S150528_S1x150528_1
    (shapeCast S150528 (mulf (broadcastInDim S3x224x224 ![0, 1, 2] bcast_S1x224x224_S3x224x224_0_1_2
      (broadcastInDim S1x224x224 ![1, 2] bcast_S224x224_S1x224x224_1_2 (amap x2))) x1) shapeCasts_S3x224x224_S150528)

/-- The two-row table. -/
def table (x1 : FVec Ideal S3x224x224 .f32) (x2 : FVec Ideal S196 .f32) : FVec Ideal S2x150528 .f32 :=
  concatenate S2x150528 0 [⟨S1x150528, keepRow x2⟩, ⟨S1x150528, noiseRow x1 x2⟩]
    concatenates_S1x150528_S1x150528_S2x150528_d0

/-- The flattened batch. -/
def flatImg (x0 : FVec Ideal S256x3x224x224 .f32) : FVec Ideal S256x150528 .f32 :=
  shapeCast S256x150528 x0 shapeCasts_S256x3x224x224_S256x150528

/-! ## What the region finds -/

variable (m : (ℓ : Loc nD τ sig) → Buf (Elt Ideal) ℓ)

/-- The region's coefficient operand is the table of the noise and the patch weights as launched. -/
theorem found_table (c : Dev nD) :
    (V m c main_v17 : S2x150528.Idx → EReal)
      = table (m ((c : Thread nD τ).loc main_arg1)) (m ((c : Thread nD τ).loc main_arg2)) := by
  show StableHlo.after hostOps0 (fun b => m (c, b)) (Proc.devRef .tc main_v17) = _
  after_results
  rfl

/-- The region's image operand is the flattened batch as launched. -/
theorem found_img (c : Dev nD) :
    (V m c main_v18 : S256x150528.Idx → EReal) = flatImg (m ((c : Thread nD τ).loc main_arg0)) := by
  show StableHlo.after hostOps0 (fun b => m (c, b)) (Proc.devRef .tc main_v18) = _
  after_results
  rfl

/-! ## The layout operations at an entry -/

/-- The row-major position of `(ch, h, w)` in a flattened image. -/
def pos (ch : Fin 3) (h w : Fin 224) : Fin 150528 :=
  ⟨(ch.val * 224 + h.val) * 224 + w.val, by have := ch.isLt; have := h.isLt; have := w.isLt; omega⟩

/-- A vector laid as the one row of a [1, n] array. -/
theorem row_apply (v : FVec Ideal S150528 .f32) (p : Fin 150528) :
    broadcastInDim S1x150528 ![1] bcast_S150528_S1x150528_1 v (ix2 (0 : Fin 1) p) = v (ix1 p) :=
  broadcastInDim_apply _ bcast_S150528_S1x150528_1 v _ _ (fun a => match a with
    | ⟨0, _⟩ => by show p.val = if (150528 : Nat) = 1 then 0 else p.val; rw [if_neg (by decide)])

/-- A [3, 224, 224] array flattened, at the position of `(ch, h, w)`. -/
theorem flat3_apply (v : FVec Ideal S3x224x224 .f32) (ch : Fin 3) (h w : Fin 224) :
    shapeCast S150528 v shapeCasts_S3x224x224_S150528 (ix1 (pos ch h w)) = v (ix3 ch h w) :=
  shapeCast_apply v shapeCasts_S3x224x224_S150528 _ _ (by
    rewrite [Shape.rowMajor_val_three, Shape.rowMajor_val_one]
    show (ch.val * 224 + h.val) * 224 + w.val = (ch.val * 224 + h.val) * 224 + w.val
    rfl)

/-- One [224, 224] map repeated over three channels. -/
theorem chan_apply (v : FVec Ideal S1x224x224 .f32) (ch : Fin 3) (h w : Fin 224) :
    broadcastInDim S3x224x224 ![0, 1, 2] bcast_S1x224x224_S3x224x224_0_1_2 v (ix3 ch h w) = v (ix3 (0 : Fin 1) h w) :=
  broadcastInDim_apply _ bcast_S1x224x224_S3x224x224_0_1_2 v _ _ (fun a => match a with
    | ⟨0, _⟩ => by show 0 = if (1 : Nat) = 1 then 0 else ch.val; rw [if_pos rfl]
    | ⟨1, _⟩ => by show h.val = if (224 : Nat) = 1 then 0 else h.val; rw [if_neg (by decide)]
    | ⟨2, _⟩ => by show w.val = if (224 : Nat) = 1 then 0 else w.val; rw [if_neg (by decide)])

/-- A [224, 224] map given a leading unit axis. -/
theorem lead_apply (v : FVec Ideal S224x224 .f32) (h w : Fin 224) :
    broadcastInDim S1x224x224 ![1, 2] bcast_S224x224_S1x224x224_1_2 v (ix3 (0 : Fin 1) h w) = v (ix2 h w) :=
  broadcastInDim_apply _ bcast_S224x224_S1x224x224_1_2 v _ _ (fun a => match a with
    | ⟨0, _⟩ => by show h.val = if (224 : Nat) = 1 then 0 else h.val; rw [if_neg (by decide)]
    | ⟨1, _⟩ => by show w.val = if (224 : Nat) = 1 then 0 else w.val; rw [if_neg (by decide)])

/-! ## The table and the batch at an entry -/

/-- Row 0 of the table at the position of `(ch, h, w)` is the image weight at the pixel. -/
theorem keepRow_apply (x2 : FVec Ideal S196 .f32) (ch : Fin 3) (h w : Fin 224) :
    keepRow x2 (ix2 (0 : Fin 1) (pos ch h w)) = keep x2 (ix2 h w) := by
  unfold keepRow
  rw [row_apply, flat3_apply, chan_apply, lead_apply]

/-- Row 1 of the table at the position of `(ch, h, w)` is the noise weight at the pixel times the noise there. -/
theorem noiseRow_apply (x1 : FVec Ideal S3x224x224 .f32) (x2 : FVec Ideal S196 .f32) (ch : Fin 3) (h w : Fin 224) :
    noiseRow x1 x2 (ix2 (0 : Fin 1) (pos ch h w)) = amap x2 (ix2 h w) * x1 (ix3 ch h w) := by
  unfold noiseRow
  rw [row_apply, flat3_apply, mulf_apply, chan_apply, lead_apply]

/-- The table's row 0 is its first piece. -/
theorem table_row0 (x1 : FVec Ideal S3x224x224 .f32) (x2 : FVec Ideal S196 .f32) (p : Fin 150528) :
    table x1 x2 (ix2 (0 : Fin 2) p) = keepRow x2 (ix2 (0 : Fin 1) p) :=
  concatenate_pair_apply_left (0 : Fin S2x150528.rank) _ _ concatenates_S1x150528_S1x150528_S2x150528_d0
    (ix2 (0 : Fin 2) p) rfl (ix2 (0 : Fin 1) p) (fun b => match b with
      | ⟨0, _⟩ => rfl
      | ⟨1, _⟩ => rfl)

/-- The table's row 1 is its second piece. -/
theorem table_row1 (x1 : FVec Ideal S3x224x224 .f32) (x2 : FVec Ideal S196 .f32) (p : Fin 150528) :
    table x1 x2 (ix2 (1 : Fin 2) p) = noiseRow x1 x2 (ix2 (0 : Fin 1) p) :=
  concatenate_pair_apply_right (0 : Fin S2x150528.rank) _ _ concatenates_S1x150528_S1x150528_S2x150528_d0
    (ix2 (1 : Fin 2) p) rfl rfl (ix2 (0 : Fin 1) p) (fun b => match b with
      | ⟨0, _⟩ => fun hb => absurd rfl hb
      | ⟨1, _⟩ => fun _ => rfl) rfl

/-- The flattened batch at image `b`, position of `(ch, h, w)`, is the batch at `(b, ch, h, w)`. -/
theorem flatImg_apply (x0 : FVec Ideal S256x3x224x224 .f32) (b : Fin 256) (ch : Fin 3) (h w : Fin 224) :
    flatImg x0 (ix2 b (pos ch h w)) = x0 (ix4 b ch h w) :=
  shapeCast_apply x0 shapeCasts_S256x3x224x224_S256x150528 _ _ (by
    rewrite [Shape.rowMajor_val_four, Shape.rowMajor_val_two]
    show ((b.val * 3 + ch.val) * 224 + h.val) * 224 + w.val = b.val * 150528 + ((ch.val * 224 + h.val) * 224 + w.val)
    have := ch.isLt; have := h.isLt; have := w.isLt
    omega)

end Cert.Blend.Host

end
-- ==== Proof.Tail.lean ====
/-
  The kernel program's result: the region's flattened output given back its four axes IS the blend.

  After the region one host operation reshapes the [256, 150528] output to [256, 3, 224, 224]: entry `(b, ch, h, w)`
  reads the flattened output at image `b`, position `(ch · 224 + h) · 224 + w`. There the flattened batch holds
  `img[b, ch, h, w]`, the table's row 0 holds `(1 - amap)[h, w]` and its row 1 holds `amap[h, w] · noise[ch, h, w]`,
  so the entry is `clip (img · (1 - amap) + amap · noise)`: the blend, after commuting one product.
-/
import proofs.«138452_j60662118088856_2_alg».proof.Proof.Blocks
import proofs.«138452_j60662118088856_2_alg».proof.Proof.Host

noncomputable section

namespace Cert.Blend.Tail

open Cert.KernelIdeal Cert.KernelIdeal.Gen Idealize.ShloMosaic Idealize.ShloMosaic.TcCoe Idealize.SL.Sem
open Idealize.ShloMosaic.ValueIdx Idealize.ShloMosaic.StableHlo Cert.Blend.Host

/-- The flattened blend of the flattened batch and the table, given back its four axes, is the blend of the
    batch, the noise and the two per-pixel maps. -/
theorem unflatten_eq (x0 : FVec Ideal S256x3x224x224 .f32) (x1 : FVec Ideal S3x224x224 .f32) (x2 : FVec Ideal S196 .f32) :
    shapeCast S256x3x224x224 (blendFlat (flatImg x0) (table x1 x2)) shapeCasts_S256x150528_S256x3x224x224
      = blend x0 x1 (keep x2) (amap x2) := by
  funext i
  obtain ⟨b, ch, h, w, rfl⟩ : ∃ (b : Fin 256) (ch : Fin 3) (h w : Fin 224), i = ix4 b ch h w :=
    ⟨i 0, i 1, i 2, i 3, eq_ix4 i⟩
  refine (shapeCast_apply _ shapeCasts_S256x150528_S256x3x224x224 (ix4 b ch h w) (ix2 b (pos ch h w)) ?_).trans ?_
  · rewrite [Shape.rowMajor_val_two, Shape.rowMajor_val_four]
    show b.val * 150528 + ((ch.val * 224 + h.val) * 224 + w.val) = ((b.val * 3 + ch.val) * 224 + h.val) * 224 + w.val
    have := ch.isLt; have := h.isLt; have := w.isLt
    omega
  · show clip (flatImg x0 (ix2 b (pos ch h w)) * table x1 x2 (ix2 (0 : Fin 2) (pos ch h w))
        + table x1 x2 (ix2 (1 : Fin 2) (pos ch h w)))
      = clip (keep x2 (ix2 h w) * x0 (ix4 b ch h w) + amap x2 (ix2 h w) * x1 (ix3 ch h w))
    rw [flatImg_apply, table_row0, table_row1, keepRow_apply, noiseRow_apply, mul_comm (x0 (ix4 b ch h w))]

variable (m : (ℓ : Loc nD τ sig) → Buf (Elt Ideal) ℓ) (ρ : Dev nD → PrngReg)

/-- What the program's result buffer holds after the host operation that follows the region. -/
theorem result_eq (c : Dev nD) :
    Pipeline.afterTail₀ cfgs (dats m) 0 (V0 m) [hostOps1] c main_v20
      = blend (m ((c : Thread nD τ).loc main_arg0)) (m ((c : Thread nD τ).loc main_arg1))
          (keep (m ((c : Thread nD τ).loc main_arg2))) (amap (m ((c : Thread nD τ).loc main_arg2))) := by
  unfold Pipeline.afterTail₀
  show StableHlo.after hostOps1 _ (Proc.devRef .tc main_v20) = _
  after_results
  -- the region's output array, as the operation after the region finds it
  have hw : Pipeline.withArrays (cfgs 0).spec c (V0 m c) (fun w => (dats m 0 c).arrAt w (cfgs 0).N)
        (Proc.devRef .tc main_v19)
      = blendFlat (flatImg (m ((c : Thread nD τ).loc main_arg0)))
          (table (m ((c : Thread nD τ).loc main_arg1)) (m ((c : Thread nD τ).loc main_arg2))) :=
    (Pipeline.withArrays_arr spec0 launch0.win.arr_inj c _ _ 2).trans
      ((Blocks.region_result m c).trans (by rw [found_img, found_table]))
  rw [hw]
  exact unflatten_eq _ _ _

/-- THE KERNEL PROGRAM'S RUN: every weakly fair execution terminates with the result buffer at the blend of the
    arguments with the two per-pixel maps, and the arguments as launched. -/
theorem kernel_run : θ_run defs (onTc (τ := τ) (main (F := Ideal))) ⟨m, fun _ => 0, ρ⟩ (fun r => ∀ c : Dev nD,
      r.2.mem ((c.tc : Thread nD τ).loc main_v20)
        = blend (m ((c.tc : Thread nD τ).loc main_arg0)) (m ((c.tc : Thread nD τ).loc main_arg1))
            (keep (m ((c.tc : Thread nD τ).loc main_arg2))) (amap (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Blend.Tail

end
-- ==== Proof.lean ====
/-
  A patch-erasing blend on TPU against its jnp reference, equal on the extended reals.

  Both programs compute, for an image batch `img[b, ch, h, w]`, a noise image `noise[ch, h, w]` and 196 patch
  weights `alpha`, the array `clip ((1 - amap) · img + amap · noise)` to [-1, 1], where `amap[h, w]` is the
  squared weight of the 16 × 16 patch that holds pixel `(h, w)`. The reference broadcasts the two per-pixel maps
  over batch and channel and computes in four dimensions. The kernel program flattens each image to one axis of
  150528 = 3 · 224 · 224 entries, folds the maps and the noise into a two-row table (row 0 = `1 - amap` over the
  channels, row 1 = `amap · noise`), runs a pipelined kernel over 32 blocks of 8 images that stores
  `clip (img · row0 + row1)`, and gives the result its four axes back.

  At the ideal instance the two agree entry by entry: flattening and unflattening are inverse re-indexings, the
  table's rows read at the position of `(ch, h, w)` are the reference's two broadcast maps there, `amap` is built
  by the same operations in both programs, the clip is the same maximum-then-minimum with the same two words, and
  the only algebra is commuting `img · (1 - amap)` into `(1 - amap) · img` — a law of the extended reals that needs
  no finiteness, so the precondition is never opened.

  Modules: Proof/Spec.lean (the blend, over image coordinates and over flattened images), Proof/Reference.lean
  (the reference is the blend), Proof/Body.lean (the kernel's stored value at an entry), Proof/Blocks.lean (from the
  32 row blocks to the region's whole output), Proof/Host.lean (the flattened batch and the table, read at an
  entry), Proof/Tail.lean (the result after the last reshape, and the kernel program's run); here, the claims.
-/
import proofs.«138452_j60662118088856_2_alg».proof.Defs
import proofs.«138452_j60662118088856_2_alg».proof.Proof.Gen.Kernel
import proofs.«138452_j60662118088856_2_alg».proof.Proof.Gen.Kernel.Skeleton
import proofs.«138452_j60662118088856_2_alg».proof.Proof.Gen.Kernel.Launch
import proofs.«138452_j60662118088856_2_alg».proof.Proof.Gen.Kernel.Points
import proofs.«138452_j60662118088856_2_alg».proof.Proof.Gen.Kernel.Frame
import proofs.«138452_j60662118088856_2_alg».proof.Proof.Gen.KernelIdeal
import proofs.«138452_j60662118088856_2_alg».proof.Proof.Gen.KernelIdeal.Skeleton
import proofs.«138452_j60662118088856_2_alg».proof.Proof.Gen.KernelIdeal.Launch
import proofs.«138452_j60662118088856_2_alg».proof.Proof.Gen.KernelIdeal.Points
import proofs.«138452_j60662118088856_2_alg».proof.Proof.Gen.KernelIdeal.Frame
import proofs.«138452_j60662118088856_2_alg».proof.Proof.Gen.ReferenceIdeal
import proofs.«138452_j60662118088856_2_alg».proof.Proof.Gen.ReferenceIdeal.Run
import proofs.«138452_j60662118088856_2_alg».proof.Proof.Gen.ReferenceIdeal.Read
import proofs.«138452_j60662118088856_2_alg».proof.Proof.Gen.Pre_finite_inputs
import proofs.«138452_j60662118088856_2_alg».proof.Proof.Reference
import proofs.«138452_j60662118088856_2_alg».proof.Proof.Tail
import Idealize.ShloMosaic.Adequacy
import Idealize.ShloMosaic.Init

noncomputable section

namespace Cert.Proof

open Idealize.ShloMosaic Idealize.SL.Sem

/-! ## The frames -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The two programs' per-pixel maps are the same functions of the patch weights -/

/-- The image weight `1 - amap`: the same operations in both programs. -/
theorem keep_eq (x2 : FVec Ideal Cert.KernelIdeal.S196 .f32) :
    Cert.ReferenceIdeal.Read.val_main_v7 (F := Ideal) x2 = Cert.Blend.Host.keep x2 := rfl

/-- The noise weight `amap`: the same operations in both programs. -/
theorem amap_eq (x2 : FVec Ideal Cert.KernelIdeal.S196 .f32) :
    Cert.ReferenceIdeal.Read.val_main_v5 (F := Ideal) x2 = Cert.Blend.Host.amap x2 := rfl

/-! ## The value claim -/

/-- From memories agreeing on the arguments both programs end with the blend of the arguments in their result
    buffers: the kernel program by its run (Proof/Tail.lean), the reference by its generated run read as the blend
    (Proof/Reference.lean), over maps that are the same functions of the patch weights. -/
theorem algebraic : Cert.algebraic_KernelIdeal_ReferenceIdeal := by
  intro m ρ m' ρ' _ hagree
  refine ⟨_, Cert.Blend.Tail.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Blend.Ref.reference_eq, (hagree c).1, (hagree c).2.1,
    (hagree c).2.2, keep_eq, amap_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
